-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel

variable [Facts]

def fn {F : FTy → Type} [FloatOps F] (main_arg0 : IVec S100000x3 32) (main_arg1 : FVec F S100000x64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  main_v3
-- ==== Kernel.lean ====
abbrev S100000x3 : Shape := ⟨2, ![100000, 3]⟩
abbrev S100000x64 : Shape := ⟨2, ![100000, 64]⟩
abbrev S8x3 : Shape := ⟨2, ![8, 3]⟩
abbrev S100000x8x3 : Shape := ⟨3, ![100000, 8, 3]⟩
abbrev S100000x8x64 : Shape := ⟨3, ![100000, 8, 64]⟩
abbrev S2000x3 : Shape := ⟨2, ![2000, 3]⟩
abbrev S2000x64 : Shape := ⟨2, ![2000, 64]⟩
abbrev S2000x8x3 : Shape := ⟨3, ![2000, 8, 3]⟩
abbrev S2000x8x64 : Shape := ⟨3, ![2000, 8, 64]⟩
abbrev S2000x1x64 : Shape := ⟨3, ![2000, 1, 64]⟩
abbrev S2000x1x3 : Shape := ⟨3, ![2000, 1, 3]⟩
abbrev S1x8x3 : Shape := ⟨3, ![1, 8, 3]⟩
abbrev S800000x3 : Shape := ⟨2, ![800000, 3]⟩
abbrev S800000x64 : Shape := ⟨2, ![800000, 64]⟩

abbrev nBuf : Space → Nat
  | .hbm => 7
  | .vmem => 9
  | .smem => 0
  | _ => 0

abbrev bufTy : (tb : Table) → Fin (tcTables nBuf tb) → BufTy
  | .hbm, ⟨0, _⟩ => ⟨S100000x3, .i32⟩
  | .hbm, ⟨1, _⟩ => ⟨S100000x64, .f32⟩
  | .hbm, ⟨2, _⟩ => ⟨S8x3, .i32⟩
  | .hbm, ⟨3, _⟩ => ⟨S100000x8x3, .i32⟩
  | .hbm, ⟨4, _⟩ => ⟨S100000x8x64, .f32⟩
  | .hbm, ⟨5, _⟩ => ⟨S800000x3, .i32⟩
  | .hbm, ⟨6, _⟩ => ⟨S800000x64, .f32⟩
  | .local _ .vmem, ⟨0, _⟩ => ⟨S8x3, .i32⟩
  | .local _ .vmem, ⟨1, _⟩ => ⟨S2000x3, .i32⟩
  | .local _ .vmem, ⟨2, _⟩ => ⟨S2000x3, .i32⟩
  | .local _ .vmem, ⟨3, _⟩ => ⟨S2000x64, .f32⟩
  | .local _ .vmem, ⟨4, _⟩ => ⟨S2000x64, .f32⟩
  | .local _ .vmem, ⟨5, _⟩ => ⟨S2000x8x3, .i32⟩
  | .local _ .vmem, ⟨6, _⟩ => ⟨S2000x8x3, .i32⟩
  | .local _ .vmem, ⟨7, _⟩ => ⟨S2000x8x64, .f32⟩
  | .local _ .vmem, ⟨8, _⟩ => ⟨S2000x8x64, .f32⟩
  | _, _ => ⟨S100000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x8x3 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2000x64_S2000x64_0_0 : ∀ a, (![0, 0] : Fin 2 → Nat) a + S2000x64.size a ≤ S2000x64.size a
  h_S2000x64 : 0 < S2000x64.numel
  shapeCasts_S2000x64_S2000x1x64 : S2000x64.ShapeCasts S2000x1x64
  shapeCasts_S2000x1x64_S2000x1x64 : S2000x1x64.ShapeCasts S2000x1x64
  broadcasts_S2000x1x64_S2000x8x64 : S2000x1x64.Broadcasts S2000x8x64
  inb_S2000x8x64_S2000x8x64_0_0_0 : ∀ a, (![0, 0, 0] : Fin 3 → Nat) a + S2000x8x64.size a ≤ S2000x8x64.size a
  h_S2000x8x64 : 0 < S2000x8x64.numel
  inb_S2000x3_S2000x3_0_0 : ∀ a, (![0, 0] : Fin 2 → Nat) a + S2000x3.size a ≤ S2000x3.size a
  h_S2000x3 : 0 < S2000x3.numel
  shapeCasts_S2000x3_S2000x1x3 : S2000x3.ShapeCasts S2000x1x3
  inb_S8x3_S8x3_0_0 : ∀ a, (![0, 0] : Fin 2 → Nat) a + S8x3.size a ≤ S8x3.size a
  h_S8x3 : 0 < S8x3.numel
  shapeCasts_S8x3_S1x8x3 : S8x3.ShapeCasts S1x8x3
  broadcasts_S2000x1x3_S2000x8x3 : S2000x1x3.Broadcasts S2000x8x3
  broadcasts_S1x8x3_S2000x8x3 : S1x8x3.Broadcasts S2000x8x3
  inb_S2000x8x3_S2000x8x3_0_0_0 : ∀ a, (![0, 0, 0] : Fin 3 → Nat) a + S2000x8x3.size a ≤ S2000x8x3.size a
  h_S2000x8x3 : 0 < S2000x8x3.numel
  shapeCasts_S100000x8x3_S800000x3 : S100000x8x3.ShapeCasts S800000x3
  shapeCasts_S100000x8x64_S800000x64 : S100000x8x64.ShapeCasts S800000x64
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x3.size a ≤ S8x3.size a
  hwx0_0 : ∀ i : grid0.Coords, EltTy.bits .i32 = 32 ∨ (Rect.block (s := S8x3) S8x3.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x3.size a ≤ S100000x3.size a
  hwx0_1 : ∀ i : grid0.Coords, EltTy.bits .i32 = 32 ∨ (Rect.block (s := S100000x3) S2000x3.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x8x3.size a ≤ S100000x8x3.size a
  hwx0_3 : ∀ i : grid0.Coords, EltTy.bits .i32 = 32 ∨ (Rect.block (s := S100000x8x3) S2000x8x3.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x8x64.size a ≤ S100000x8x64.size a
  hwx0_4 : ∀ i : grid0.Coords, EltTy.bits .f32 = 32 ∨ (Rect.block (s := S100000x8x64) S2000x8x64.size (cc0_transform_4 i) (hinb0_4 i)).WholeWords (EltTy.packing .f32)

variable [Facts₀]

abbrev win0_0 : Pipeline.Window sig grid0 :=
  Pipeline.Window.ofSpec (Memref.whole main_c) S8x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x8x3.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x64 : Shape := ⟨2, ![100000, 64]⟩
abbrev S1x1x3 : Shape := ⟨3, ![1, 1, 3]⟩
abbrev S1x8x3 : Shape := ⟨3, ![1, 8, 3]⟩
abbrev S100000x1x3 : Shape := ⟨3, ![100000, 1, 3]⟩
abbrev S100000x8x3 : Shape := ⟨3, ![100000, 8, 3]⟩
abbrev S800000x3 : Shape := ⟨2, ![800000, 3]⟩
abbrev S100000x1x64 : Shape := ⟨3, ![100000, 1, 64]⟩
abbrev S100000x8x64 : Shape := ⟨3, ![100000, 8, 64]⟩
abbrev S800000x64 : Shape := ⟨2, ![800000, 64]⟩

abbrev nBuf : Space → Nat
  | .hbm => 14
  | .vmem => 0
  | .smem => 0
  | _ => 0

abbrev bufTy : (tb : Table) → Fin (tcTables nBuf tb) → BufTy
  | .hbm, ⟨0, _⟩ => ⟨S100000x3, .i32⟩
  | .hbm, ⟨1, _⟩ => ⟨S100000x64, .f32⟩
  | .hbm, ⟨2, _⟩ => ⟨S1x1x3, .i32⟩
  | .hbm, ⟨3, _⟩ => ⟨S1x8x3, .i32⟩
  | .hbm, ⟨4, _⟩ => ⟨S100000x1x3, .i32⟩
  | .hbm, ⟨5, _⟩ => ⟨S100000x1x3, .i32⟩
  | .hbm, ⟨6, _⟩ => ⟨S100000x1x3, .i32⟩
  | .hbm, ⟨7, _⟩ => ⟨S100000x8x3, .i32⟩
  | .hbm, ⟨8, _⟩ => ⟨S100000x8x3, .i32⟩
  | .hbm, ⟨9, _⟩ => ⟨S100000x8x3, .i32⟩
  | .hbm, ⟨10, _⟩ => ⟨S800000x3, .i32⟩
  | .hbm, ⟨11, _⟩ => ⟨S100000x1x64, .f32⟩
  | .hbm, ⟨12, _⟩ => ⟨S100000x8x64, .f32⟩
  | .hbm, ⟨13, _⟩ => ⟨S800000x64, .f32⟩
  | _, _ => ⟨S100000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S100000x3_S100000x1x3_0_2 : S100000x3.BroadcastsInDim S100000x1x3 (![0, 2] : Fin 2 → Fin S100000x1x3.rank)
  bcast_S1x1x3_S100000x1x3_0_1_2 : S1x1x3.BroadcastsInDim S100000x1x3 (![0, 1, 2] : Fin 3 → Fin S100000x1x3.rank)
  bcast_S100000x1x3_S100000x8x3_0_1_2 : S100000x1x3.BroadcastsInDim S100000x8x3 (![0, 1, 2] : Fin 3 → Fin S100000x8x3.rank)
  bcast_S1x8x3_S100000x8x3_0_1_2 : S1x8x3.BroadcastsInDim S100000x8x3 (![0, 1, 2] : Fin 3 → Fin S100000x8x3.rank)
  shapeCasts_S100000x8x3_S800000x3 : S100000x8x3.ShapeCasts S800000x3
  bcast_S100000x64_S100000x1x64_0_2 : S100000x64.BroadcastsInDim S100000x1x64 (![0, 2] : Fin 2 → Fin S100000x1x64.rank)
  bcast_S100000x1x64_S100000x8x64_0_1_2 : S100000x1x64.BroadcastsInDim S100000x8x64 (![0, 1, 2] : Fin 3 → Fin S100000x8x64.rank)
  shapeCasts_S100000x8x64_S800000x64 : S100000x8x64.ShapeCasts S800000x64

variable [Facts₀]

class Facts : Prop extends Facts₀ where

variable [Facts]
-- ==== Proof.LibMidAxis.lean ====
/-
  A unit MIDDLE axis, inserted and repeated, read at an index given by coordinates.

  An `[a, b]` array becomes `[a, 1, b]` (a shape cast on the vector unit, a `broadcast_in_dim` along axes `[0, 2]` on the
  host) and is then repeated `k` times along the new axis to `[a, k, b]` (a broadcast, or a `broadcast_in_dim` along all
  three axes); a `[1, k, b]` table is repeated `a` times along its leading axis. Each lemma says which element of the
  operand the result holds at `(p, j, q)`; none depends on the element type.
-/
import Idealize.ShloMosaic.Lib.ValueLayout

namespace Cert.MidAxis

open Idealize.ShloMosaic Idealize.ShloMosaic.ValueIdx

variable {α : Type}

/-- An `[a, b]` array cast to `[a, 1, b]` holds, at `(p, u, q)`, the operand's `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` holds, at `(p, j, q)`, the operand's `(p, 0, q)`. -/
theorem broadcastTo_a1b_akb_apply {a k b : ℕ} (x : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ x h (ix3 p j q) = x (ix3 p (0 : Fin 1) q) := by
  refine broadcastTo_apply x h (ix3 p j q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if b = 1 then 0 else q.val
    split
    · have := q.isLt; omega
    · rfl

/-- A `[1, k, b]` table broadcast to `[a, k, b]` holds, at `(p, j, q)`, the table's `(0, j, q)`. -/
theorem broadcastTo_1kb_akb_apply {a k b : ℕ} (x : (⟨3, ![1, k, b]⟩ : Shape).Idx → α)
    (h : (⟨3, ![1, k, b]⟩ : Shape).Broadcasts ⟨3, ![a, k, b]⟩) (p : Fin a) (j : Fin k) (q : Fin b) :
    broadcastTo ⟨3, ![a, k, b]⟩ x h (ix3 p j q) = x (ix3 (0 : Fin 1) j q) := by
  refine broadcastTo_apply x h (ix3 p j q) (ix3 (0 : Fin 1) j q) fun ax => ?_
  match ax with
  | ⟨0, _⟩ => rfl
  | ⟨1, _⟩ =>
    show j.val = if k = 1 then 0 else j.val
    split
    · have := j.isLt; omega
    · rfl
  | ⟨2, _⟩ =>
    show q.val = if b = 1 then 0 else q.val
    split
    · have := q.isLt; omega
    · rfl

/-- A host `broadcast_in_dim` of an `[a, b]` array along axes `[0, 2]` of `[a, 1, b]` holds, at `(p, u, q)`, the
    operand's `(p, q)`. -/
theorem broadcastInDim_ab_a1b_apply {a b : ℕ} (dims : Fin 2 → Fin 3) (hd0 : dims 0 = 0) (hd1 : dims 1 = 2)
    (h : (⟨2, ![a, b]⟩ : Shape).BroadcastsInDim ⟨3, ![a, 1, b]⟩ dims)
    (x : (⟨2, ![a, b]⟩ : Shape).Idx → α) (p : Fin a) (u : Fin 1) (q : Fin b) :
    broadcastInDim ⟨3, ![a, 1, b]⟩ dims h x (ix3 p u q) = x (ix2 p q) := by
  refine broadcastInDim_apply dims h x (ix3 p u q) (ix2 p q) fun ax => ?_
  match ax with
  | ⟨0, _⟩ =>
    show p.val = if a = 1 then 0 else (ix3 p u q (dims 0)).val
    rw [hd0]
    split
    · have := p.isLt; omega
    · rfl
  | ⟨1, _⟩ =>
    show q.val = if b = 1 then 0 else (ix3 p u q (dims 1)).val
    rw [hd1]
    split
    · have := q.isLt; omega
    · rfl

/-- A host `broadcast_in_dim` of an `[a, 1, b]` array along all three axes of `[a, k, b]` holds, at `(p, j, q)`, the
    operand's `(p, 0, q)`. -/
theorem broadcastInDim_a1b_akb_apply {a k b : ℕ} (dims : Fin 3 → Fin 3) (hd0 : dims 0 = 0) (hd2 : dims 2 = 2)
    (h : (⟨3, ![a, 1, b]⟩ : Shape).BroadcastsInDim ⟨3, ![a, k, b]⟩ dims)
    (x : (⟨3, ![a, 1, b]⟩ : Shape).Idx → α) (p : Fin a) (j : Fin k) (q : Fin b) :
    broadcastInDim ⟨3, ![a, k, b]⟩ dims h x (ix3 p j q) = x (ix3 p (0 : Fin 1) q) := by
  refine broadcastInDim_apply dims h x (ix3 p j q) (ix3 p (0 : Fin 1) q) fun ax => ?_
  match ax with
  | ⟨0, _⟩ =>
    show p.val = if a = 1 then 0 else (ix3 p j q (dims 0)).val
    rw [hd0]
    split
    · have := p.isLt; omega
    · rfl
  | ⟨1, _⟩ => rfl
  | ⟨2, _⟩ =>
    show q.val = if b = 1 then 0 else (ix3 p j q (dims 2)).val
    rw [hd2]
    split
    · have := q.isLt; omega
    · rfl

/-- A host `broadcast_in_dim` of a `[1, k, b]` table along all three axes of `[a, k, b]` holds, at `(p, j, q)`, the
    table's `(0, j, q)`. -/
theorem broadcastInDim_1kb_akb_apply {a k b : ℕ} (dims : Fin 3 → Fin 3) (hd1 : dims 1 = 1) (hd2 : dims 2 = 2)
    (h : (⟨3, ![1, k, b]⟩ : Shape).BroadcastsInDim ⟨3, ![a, k, b]⟩ dims)
    (x : (⟨3, ![1, k, b]⟩ : Shape).Idx → α) (p : Fin a) (j : Fin k) (q : Fin b) :
    broadcastInDim ⟨3, ![a, k, b]⟩ dims h x (ix3 p j q) = x (ix3 (0 : Fin 1) j q) := by
  refine broadcastInDim_apply dims h x (ix3 p j q) (ix3 (0 : Fin 1) j q) fun ax => ?_
  match ax with
  | ⟨0, _⟩ => rfl
  | ⟨1, _⟩ =>
    show j.val = if k = 1 then 0 else (ix3 p j q (dims 1)).val
    rw [hd1]
    split
    · have := j.isLt; omega
    · rfl
  | ⟨2, _⟩ =>
    show q.val = if b = 1 then 0 else (ix3 p j q (dims 2)).val
    rw [hd2]
    split
    · have := q.isLt; omega
    · rfl

end Cert.MidAxis
-- ==== Proof.KernelPay.lean ====
/-
  What one call of the kernel body stores, read at an index given by coordinates.

  The body holds a block of 2000 voxels. Into the feature block `[2000, 8, 64]` it stores the voxel block's features with a
  unit middle axis repeated 8 times: at `(a, k, d)` the features' `(a, d)`. Into the coordinate block `[2000, 8, 3]` it
  stores `(v with a unit middle axis) * 2` repeated 8 times plus the corner table repeated over the 2000 voxels: at
  `(a, k, b)` the word `v[a, b] * 2 + off[k, b]`.
-/
import proofs.«162923_g31756988187341_cont_9to1_1364_4_alg».proof.Proof.Gen.KernelIdeal.Frame
import proofs.«162923_g31756988187341_cont_9to1_1364_4_alg».proof.Proof.LibMidAxis

noncomputable section

namespace Cert.KernelIdeal.Hand

open Cert.KernelIdeal Cert.KernelIdeal.Gen Idealize.ShloMosaic Idealize.ShloMosaic.ValueIdx Cert.MidAxis

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The feature payload at `(a, k, d)` is the loaded features' `(a, d)`. -/
theorem pay_feats (x : Vec F S2000x64 .f32) (a : Fin 2000) (k : Fin 8) (d : Fin 64) :
    k0_pay1 x (ix3 a k d) = x (ix2 a d) := by
  unfold k0_pay1
  refine (broadcastTo_a1b_akb_apply _ _ a k d).trans ?_
  rw [shapeCast_self]
  exact shapeCast_ab_a1b_apply x _ a 0 d

/-- The coordinate payload at `(a, k, b)` is `v[a, b] * 2 + off[k, b]` of the loaded voxel block and table. -/
theorem pay_inds (x1 : Vec F S2000x3 .i32) (x0 : Vec F S8x3 .i32) (a : Fin 2000) (k : Fin 8) (b : Fin 3) :
    k0_pay2 x1 x0 (ix3 a k b) = (x1 (ix2 a b) * 2#32 + x0 (ix2 k b) : BitVec 32) := by
  unfold k0_pay2
  show IntOp.addi (broadcastTo S2000x8x3 (muli (shapeCast S2000x1x3 x1 shapeCasts_S2000x3_S2000x1x3) (broadcast S2000x1x3 2#32)) broadcasts_S2000x1x3_S2000x8x3 (ix3 a k b))
      (broadcastTo S2000x8x3 (shapeCast S1x8x3 x0 shapeCasts_S8x3_S1x8x3) broadcasts_S1x8x3_S2000x8x3 (ix3 a k b)) = _
  rw [broadcastTo_a1b_akb_apply, broadcastTo_1kb_akb_apply, shapeCast_ab_1ab_apply]
  show IntOp.addi (IntOp.muli (shapeCast S2000x1x3 x1 shapeCasts_S2000x3_S2000x1x3 (ix3 a (0 : Fin 1) b)) 2#32) (x0 (ix2 k b)) = _
  rw [shapeCast_ab_a1b_apply]
  rfl

/-- What the body leaves in the coordinate block, at an index with coordinates `(a, k, b)`. -/
theorem out_inds_at (x0 : Vec F S8x3 .i32) (x1 : Vec F S2000x3 .i32) (x2 : Vec F S2000x64 .f32) (y : S2000x8x3.Idx)
    (a : Fin 2000) (k : Fin 8) (b : Fin 3) (h0 : (y 0).val = a.val) (h1 : (y 1).val = k.val) (h2 : (y 2).val = b.val) :
    out0_3 x0 x1 x2 y = (x1 (ix2 a b) * 2#32 + x0 (ix2 k b) : BitVec 32) := by
  have hy : y = ix3 a k b := funext fun ax => Fin.ext (match ax with | ⟨0, _⟩ => h0 | ⟨1, _⟩ => h1 | ⟨2, _⟩ => h2)
  subst hy
  unfold out0_3
  rw [View.canon_unit_zero hz3]
  simp only [View.ld_unit_zero (S := S2000x3) hz2, View.ld_unit_zero (S := S8x3) hz2]
  exact pay_inds x1 x0 a k b

/-- What the body leaves in the feature block, at an index with coordinates `(a, k, d)`. -/
theorem out_feats_at (x0 : Vec F S8x3 .i32) (x1 : Vec F S2000x3 .i32) (x2 : Vec F S2000x64 .f32) (y : S2000x8x64.Idx)
    (a : Fin 2000) (k : Fin 8) (d : Fin 64) (h0 : (y 0).val = a.val) (h1 : (y 1).val = k.val) (h2 : (y 2).val = d.val) :
    out0_4 x0 x1 x2 y = x2 (ix2 a d) := by
  have hy : y = ix3 a k d := funext fun ax => Fin.ext (match ax with | ⟨0, _⟩ => h0 | ⟨1, _⟩ => h1 | ⟨2, _⟩ => h2)
  subst hy
  unfold out0_4
  rw [View.canon_unit_zero hz3]
  simp only [View.ld_unit_zero (S := S2000x64) hz2]
  exact pay_feats x2 a k d

end Cert.KernelIdeal.Hand

end
-- ==== Proof.Spec.lean ====
/-
  What both programs compute, as functions of the two argument arrays over literal shapes.

  Every one of the 100000 voxels has 8 children. Child `k` of voxel `n` has integer coordinates
  `2 * v[n, b] + off[k, b]` (`b` over the 3 axes, `off` the 8 corners of the unit cube listed row by row as 24 words,
  the arithmetic that of 32-bit words) and carries the voxel's 64 features unchanged. Both results are stated as
  `[100000, 8, ·]` arrays; flattening the two leading axes is the same last step on both sides and is never opened.
-/
import Idealize.ShloMosaic.Lib.ValueLayout

namespace Cert.Upsample

open Idealize.ShloMosaic Idealize.ShloMosaic.ValueIdx

/-- Entry `(k, b)` of an 8 × 3 table given as its 24 words row by row. -/
def tabAt (tab : Fin 24 → BitVec 32) (k : Fin 8) (b : Fin 3) : BitVec 32 :=
  tab ⟨k.val * 3 + b.val, by have := k.isLt; have := b.isLt; omega⟩

/-- The children's coordinates: `2 * v[n, b] + off[k, b]` at `(n, k, b)`. -/
def childInds (tab : Fin 24 → BitVec 32) (v : (⟨2, ![100000, 3]⟩ : Shape).Idx → BitVec 32) :
    (⟨3, ![100000, 8, 3]⟩ : Shape).Idx → BitVec 32 :=
  fun i => v (ix2 (n0 := 100000) (n1 := 3) (i 0) (i 2)) * 2#32 + tabAt tab (i 1) (i 2)

/-- The children's features: the voxel's row, at every one of its 8 children. -/
def repeatRows {α : Type} (x : (⟨2, ![100000, 64]⟩ : Shape).Idx → α) : (⟨3, ![100000, 8, 64]⟩ : Shape).Idx → α :=
  fun i => x (ix2 (n0 := 100000) (n1 := 64) (i 0) (i 2))

theorem childInds_ix3 (tab : Fin 24 → BitVec 32) (v : (⟨2, ![100000, 3]⟩ : Shape).Idx → BitVec 32)
    (n : Fin 100000) (k : Fin 8) (b : Fin 3) : childInds tab v (ix3 n k b) = v (ix2 n b) * 2#32 + tabAt tab k b := rfl

theorem repeatRows_ix3 {α : Type} (x : (⟨2, ![100000, 64]⟩ : Shape).Idx → α) (n : Fin 100000) (k : Fin 8) (d : Fin 64) :
    repeatRows x (ix3 n k d) = x (ix2 n d) := rfl

/-- The table as an `[8, 3]` array listed row by row: the word at `(k, b)` is entry `(k, b)`. -/
theorem tab_rowMajor_8x3 (tab : Fin 24 → BitVec 32) (k : Fin 8) (b : Fin 3) :
    tab ((⟨2, ![8, 3]⟩ : Shape).rowMajor (ix2 k b)) = tabAt tab k b :=
  congrArg tab (Fin.ext (by rw [Shape.rowMajor_val_two]; rfl))

/-- The same table as a `[1, 8, 3]` array: the word at `(0, k, b)` is entry `(k, b)`. -/
theorem tab_rowMajor_1x8x3 (tab : Fin 24 → BitVec 32) (u : Fin 1) (k : Fin 8) (b : Fin 3) :
    tab ((⟨3, ![1, 8, 3]⟩ : Shape).rowMajor (ix3 u k b)) = tabAt tab k b :=
  congrArg tab (Fin.ext (by
    have hu : u.val = 0 := by omega
    rw [Shape.rowMajor_val_three]
    show (u.val * 8 + k.val) * 3 + b.val = k.val * 3 + b.val
    rw [hu, Nat.zero_mul, Nat.zero_add]))

end Cert.Upsample
-- ==== Proof.KernelValue.lean ====
/-
  What the kernel's program leaves in its two result buffers.

  The grid has 50 points; point `t` holds voxels `2000 t … 2000 t + 1999`. Its voxel block and feature block are those
  rows of the two arguments, its table block is the whole corner table (a constant the program writes before the
  launch), and it writes back rows `2000 t …` of the two `[100000, 8, ·]` outputs. What it writes is the
  specification's array read through that block; the 50 blocks tile the outputs, so after the launch each output is the
  specification's array, and the two host lines after the launch flatten the two leading axes.
-/
import proofs.«162923_g31756988187341_cont_9to1_1364_4_alg».proof.Proof.KernelPay
import proofs.«162923_g31756988187341_cont_9to1_1364_4_alg».proof.Proof.Spec
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Upsample
open Idealize.ShloMosaic.Pipeline (Dat)

variable {F : FTy → Type} [FloatOps F]
variable (m : (ℓ : Loc nD τ sig) → Buf (Elt F) ℓ) (ρ : Dev nD → PrngReg)

/-- The printed index maps over the grid: the table's block never moves; the voxel, feature and both output blocks
    move with the point along the leading axis only. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The table's array, as the launch finds it, is the 24 words listed row by row. -/
theorem V_table (c : Dev nD) : (V m c main_c : S8x3.Idx → BitVec 32) = fun i => lit0 (S8x3.rowMajor i) := by
  show StableHlo.after hostOps0 (fun b => m (c, b)) (Proc.devRef .tc main_c) = _
  after_results
  rfl

/-- The table's block at any point, at `(k, b)`, is entry `(k, b)` of the table. -/
theorem blk_table_at (c : Dev nD) (t : Fin cfg0.N) (k : Fin 8) (b : Fin 3) :
    (iblk m c 0 t : Vec F S8x3 .i32) (ix2 k b) = tabAt lit0 k b := by
  obtain ⟨e00, e01, -⟩ := idx_facts t
  unfold iblk
  rw [View.read_apply]
  show V m c main_c (((cfg0.win 0).blk t).view.emb (ix2 k b)) = _
  have he : ((cfg0.win 0).blk t).view.emb (ix2 k b) = (ix2 k b : S8x3.Idx) := by
    funext ax; apply Fin.ext
    match ax with
    | ⟨0, _⟩ => show win0_0.index t (0 : Fin 2) * 8 + 1 * k.val = k.val; omega
    | ⟨1, _⟩ => show win0_0.index t (1 : Fin 2) * 3 + 1 * b.val = b.val; omega
  rw [he, V_table]
  exact tab_rowMajor_8x3 lit0 k b

/-- The voxel block at point `t`, at `(a, b)`, is the voxel array's `(2000 t + a, b)`. -/
theorem blk_inds_at (c : Dev nD) (t : Fin cfg0.N) (a : Fin 2000) (b : Fin 3) (n : Fin 100000) (hn : n.val = t.val * 2000 + a.val) :
    (iblk m c 1 t : Vec F S2000x3 .i32) (ix2 a b) = (V m c main_arg0 : S100000x3.Idx → BitVec 32) (ix2 n b) := by
  obtain ⟨-, -, e10, e11, -⟩ := idx_facts t
  unfold iblk
  rw [View.read_apply]
  show V m c main_arg0 (((cfg0.win 1).blk t).view.emb (ix2 a b)) = V m c main_arg0 (ix2 n b)
  refine congrArg (V m c main_arg0) (funext fun ax => Fin.ext ?_)
  match ax with
  | ⟨0, _⟩ => show win0_1.index t (0 : Fin 2) * 2000 + 1 * a.val = n.val; omega
  | ⟨1, _⟩ => show win0_1.index t (1 : Fin 2) * 3 + 1 * b.val = b.val; omega

/-- The feature block at point `t`, at `(a, d)`, is the feature array's `(2000 t + a, d)`. -/
theorem blk_feats_at (c : Dev nD) (t : Fin cfg0.N) (a : Fin 2000) (d : Fin 64) (n : Fin 100000) (hn : n.val = t.val * 2000 + a.val) :
    (iblk m c 2 t : Vec F S2000x64 .f32) (ix2 a d) = (V m c main_arg1 : S100000x64.Idx → Elt F .f32) (ix2 n d) := by
  obtain ⟨-, -, -, -, e20, e21, -⟩ := idx_facts t
  unfold iblk
  rw [View.read_apply]
  show V m c main_arg1 (((cfg0.win 2).blk t).view.emb (ix2 a d)) = V m c main_arg1 (ix2 n d)
  refine congrArg (V m c main_arg1) (funext fun ax => Fin.ext ?_)
  match ax with
  | ⟨0, _⟩ => show win0_2.index t (0 : Fin 2) * 2000 + 1 * a.val = n.val; omega
  | ⟨1, _⟩ => show win0_2.index t (1 : Fin 2) * 64 + 1 * d.val = d.val; omega

/-- WHAT POINT `t` WRITES BACK to the coordinate output is block `t` of the specification's array. -/
theorem flushed_inds (c : Dev nD) (t : Fin cfg0.N) :
    (dats m 0 c).flushed 3 t = ((cfg0.win 3).blk t).view.read (Elt F) (childInds lit0 (V m c main_arg0)) := by
  show (cfg0.win 3).cut (grid0.coords t) ((dats m 0 c).after 3 t) = _
  rw [after0_3]
  obtain ⟨-, -, -, -, -, -, e30, e31, e32, -⟩ := idx_facts t
  have hN : cfg0.N = 50 := N_0
  have ht : t.val < 50 := hN ▸ t.isLt
  funext y
  have ha : (y 0).val < 2000 := (y 0).isLt
  have hk : (y 1).val < 8 := (y 1).isLt
  have hb : (y 2).val < 3 := (y 2).isLt
  show out0_3 (iblk m c 0 t) (iblk m c 1 t) (iblk m c 2 t) ((cfg0.win 3).xinj (grid0.coords t) y)
    = childInds lit0 (V m c main_arg0) (((cfg0.win 3).blk t).view.emb y)
  refine (out_inds_at (F := F) (iblk m c 0 t) (iblk m c 1 t) (iblk m c 2 t) _ ⟨(y 0).val, ha⟩ ⟨(y 1).val, hk⟩ ⟨(y 2).val, hb⟩ rfl rfl rfl).trans ?_
  rw [blk_inds_at m c t ⟨(y 0).val, ha⟩ ⟨(y 2).val, hb⟩ ⟨t.val * 2000 + (y 0).val, by omega⟩ rfl,
    blk_table_at m c t ⟨(y 1).val, hk⟩ ⟨(y 2).val, hb⟩]
  have he : ((cfg0.win 3).blk t).view.emb y
      = (ix3 (⟨t.val * 2000 + (y 0).val, by omega⟩ : Fin 100000) (⟨(y 1).val, hk⟩ : Fin 8) (⟨(y 2).val, hb⟩ : Fin 3) : S100000x8x3.Idx) := by
    funext ax; apply Fin.ext
    match ax with
    | ⟨0, _⟩ => show win0_3.index t (0 : Fin 3) * 2000 + 1 * (y 0).val = t.val * 2000 + (y 0).val; omega
    | ⟨1, _⟩ => show win0_3.index t (1 : Fin 3) * 8 + 1 * (y 1).val = (y 1).val; omega
    | ⟨2, _⟩ => show win0_3.index t (2 : Fin 3) * 3 + 1 * (y 2).val = (y 2).val; omega
  rw [he, childInds_ix3]

/-- WHAT POINT `t` WRITES BACK to the feature output is block `t` of the specification's array. -/
theorem flushed_feats (c : Dev nD) (t : Fin cfg0.N) :
    (dats m 0 c).flushed 4 t = ((cfg0.win 4).blk t).view.read (Elt F) (repeatRows (V m c main_arg1 : S100000x64.Idx → Elt F .f32)) := by
  show (cfg0.win 4).cut (grid0.coords t) ((dats m 0 c).after 4 t) = _
  rw [after0_4]
  obtain ⟨-, -, -, -, -, -, -, -, -, e40, e41, e42⟩ := idx_facts t
  have hN : cfg0.N = 50 := N_0
  have ht : t.val < 50 := hN ▸ t.isLt
  funext y
  have ha : (y 0).val < 2000 := (y 0).isLt
  have hk : (y 1).val < 8 := (y 1).isLt
  have hd : (y 2).val < 64 := (y 2).isLt
  show out0_4 (iblk m c 0 t) (iblk m c 1 t) (iblk m c 2 t) ((cfg0.win 4).xinj (grid0.coords t) y)
    = repeatRows (V m c main_arg1 : S100000x64.Idx → Elt F .f32) (((cfg0.win 4).blk t).view.emb y)
  refine (out_feats_at (F := F) (iblk m c 0 t) (iblk m c 1 t) (iblk m c 2 t) _ ⟨(y 0).val, ha⟩ ⟨(y 1).val, hk⟩ ⟨(y 2).val, hd⟩ rfl rfl rfl).trans ?_
  rw [blk_feats_at m c t ⟨(y 0).val, ha⟩ ⟨(y 2).val, hd⟩ ⟨t.val * 2000 + (y 0).val, by omega⟩ rfl]
  have he : ((cfg0.win 4).blk t).view.emb y
      = (ix3 (⟨t.val * 2000 + (y 0).val, by omega⟩ : Fin 100000) (⟨(y 1).val, hk⟩ : Fin 8) (⟨(y 2).val, hd⟩ : Fin 64) : S100000x8x64.Idx) := by
    funext ax; apply Fin.ext
    match ax with
    | ⟨0, _⟩ => show win0_4.index t (0 : Fin 3) * 2000 + 1 * (y 0).val = t.val * 2000 + (y 0).val; omega
    | ⟨1, _⟩ => show win0_4.index t (1 : Fin 3) * 8 + 1 * (y 1).val = (y 1).val; omega
    | ⟨2, _⟩ => show win0_4.index t (2 : Fin 3) * 64 + 1 * (y 2).val = (y 2).val; omega
  rw [he, repeatRows_ix3]

/-- An index of the coordinate output is in point `t`'s block iff each coordinate is in the block's range on its axis. -/
theorem mem_blk_inds (t : Fin cfg0.N) (i : S100000x8x3.Idx) :
    i ∈ ((cfg0.win 3).blk t).view.set ↔ ∀ a : Fin 3, win0_3.index t a * S2000x8x3.size a ≤ (i a).val ∧ (i a).val < win0_3.index t a * S2000x8x3.size a + S2000x8x3.size a := by
  show i ∈ ((View.whole main_v0_0).slice (win0_3.rect t)).set ↔ _
  rw [View.set_slice_whole, Rect.mem_set_unit]
  exact Iff.rfl

/-- The same for the feature output. -/
theorem mem_blk_feats (t : Fin cfg0.N) (i : S100000x8x64.Idx) :
    i ∈ ((cfg0.win 4).blk t).view.set ↔ ∀ a : Fin 3, win0_4.index t a * S2000x8x64.size a ≤ (i a).val ∧ (i a).val < win0_4.index t a * S2000x8x64.size a + S2000x8x64.size a := by
  show i ∈ ((View.whole main_v0_1).slice (win0_4.rect t)).set ↔ _
  rw [View.set_slice_whole, Rect.mem_set_unit]
  exact Iff.rfl

/-- Every index of the coordinate output is in the block of the point that holds its voxel: point `n / 2000`. -/
theorem cover_inds (i : S100000x8x3.Idx) : ∃ t : Fin cfg0.N, (cfg0.win 3).flush t = true ∧ i ∈ ((cfg0.win 3).blk t).view.set := by
  have h0 : (i 0).val < 100000 := (i 0).isLt
  have h1 : (i 1).val < 8 := (i 1).isLt
  have h2 : (i 2).val < 3 := (i 2).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, e30, e31, e32, -⟩ := idx_facts t
  refine ⟨t, flush0_3 t, ?_⟩
  rw [mem_blk_inds]
  intro a
  match a with
  | ⟨0, _⟩ => show win0_3.index t (0 : Fin 3) * 2000 ≤ (i 0).val ∧ (i 0).val < win0_3.index t (0 : Fin 3) * 2000 + 2000; omega
  | ⟨1, _⟩ => show win0_3.index t (1 : Fin 3) * 8 ≤ (i 1).val ∧ (i 1).val < win0_3.index t (1 : Fin 3) * 8 + 8; omega
  | ⟨2, _⟩ => show win0_3.index t (2 : Fin 3) * 3 ≤ (i 2).val ∧ (i 2).val < win0_3.index t (2 : Fin 3) * 3 + 3; omega

/-- The same for the feature output. -/
theorem cover_feats (i : S100000x8x64.Idx) : ∃ t : Fin cfg0.N, (cfg0.win 4).flush t = true ∧ i ∈ ((cfg0.win 4).blk t).view.set := by
  have h0 : (i 0).val < 100000 := (i 0).isLt
  have h1 : (i 1).val < 8 := (i 1).isLt
  have h2 : (i 2).val < 64 := (i 2).isLt
  have hN : cfg0.N = 50 := N_0
  obtain ⟨t, ht⟩ : ∃ t : Fin cfg0.N, t.val = (i 0).val / 2000 := ⟨⟨(i 0).val / 2000, by rw [hN]; omega⟩, rfl⟩
  obtain ⟨-, -, -, -, -, -, -, -, -, e40, e41, e42⟩ := idx_facts t
  refine ⟨t, flush0_4 t, ?_⟩
  rw [mem_blk_feats]
  intro a
  match a with
  | ⟨0, _⟩ => show win0_4.index t (0 : Fin 3) * 2000 ≤ (i 0).val ∧ (i 0).val < win0_4.index t (0 : Fin 3) * 2000 + 2000; omega
  | ⟨1, _⟩ => show win0_4.index t (1 : Fin 3) * 8 ≤ (i 1).val ∧ (i 1).val < win0_4.index t (1 : Fin 3) * 8 + 8; omega
  | ⟨2, _⟩ => show win0_4.index t (2 : Fin 3) * 64 ≤ (i 2).val ∧ (i 2).val < win0_4.index t (2 : Fin 3) * 64 + 64; omega

/-- THE COORDINATE OUTPUT after the launch is the specification's array of the voxel argument. -/
theorem final_inds (c : Dev nD) : (dats m 0 c).arrAt 3 cfg0.N = childInds lit0 (m ((c : Thread nD τ).loc main_arg0)) := by
  rw [← V_main_arg0 m c]
  exact (dats m 0 c).arrAt_eq_of_cover 3 (childInds lit0 (V m c main_arg0)) (fun t _ => flushed_inds m c t) cover_inds

/-- THE FEATURE OUTPUT after the launch is the specification's array of the feature argument. -/
theorem final_feats (c : Dev nD) : (dats m 0 c).arrAt 4 cfg0.N = repeatRows (m ((c : Thread nD τ).loc main_arg1) : S100000x64.Idx → Elt F .f32) := by
  rw [← V_main_arg1 m c]
  exact (dats m 0 c).arrAt_eq_of_cover 4 (repeatRows (V m c main_arg1 : S100000x64.Idx → Elt F .f32)) (fun t _ => flushed_feats m c t) cover_feats

end Cert.KernelIdeal.Hand

end
-- ==== Proof.KernelRun.lean ====
/-
  The kernel program's run, read: after the launch the two host lines flatten the two leading axes of the outputs, so
  every weakly fair execution ends with the two results at the flattened specification arrays and the arguments unchanged.
-/
import proofs.«162923_g31756988187341_cont_9to1_1364_4_alg».proof.Proof.KernelValue

noncomputable section

namespace Cert.KernelIdeal.Hand

open Cert.KernelIdeal Cert.KernelIdeal.Gen Idealize.ShloMosaic Idealize.ShloMosaic.TcCoe Idealize.SL.Sem
open Idealize.ShloMosaic.ValueIdx Cert.Upsample
open Idealize.ShloMosaic.Pipeline (Dat)

variable {F : FTy → Type} [FloatOps F]
variable (m : (ℓ : Loc nD τ sig) → Buf (Elt F) ℓ) (ρ : Dev nD → PrngReg)

/-- The two result buffers are no window's array: the launch passes them by and the host lines after it write them. -/
theorem rest_v1 : main_v1 ∈ Pipeline.restRefs sig (cfgs 0).spec := Pipeline.mem_restRefs_of main_v1 rfl (by decide)
theorem rest_v2 : main_v2 ∈ Pipeline.restRefs sig (cfgs 0).spec := Pipeline.mem_restRefs_of main_v2 rfl (by decide)

/-- After the host lines that follow the launch, the first result is the coordinate output with its two leading axes
    flattened. -/
theorem tail_inds (c : Dev nD) :
    (Pipeline.afterTail₀ cfgs (dats m) 0 (V0 m) [hostOps1] c main_v1 : S800000x3.Idx → BitVec 32)
      = shapeCast S800000x3 (childInds lit0 (m ((c : Thread nD τ).loc main_arg0))) shapeCasts_S100000x8x3_S800000x3 := by
  unfold Pipeline.afterTail₀
  show StableHlo.after hostOps1 _ (Proc.devRef .tc main_v1) = _
  after_results
  have hw : (Pipeline.withArrays (cfgs 0).spec c (V0 m c) (fun w => (dats m 0 c).arrAt w (cfgs 0).N) (Proc.devRef .tc main_v0_0) : S100000x8x3.Idx → BitVec 32)
      = childInds lit0 (m ((c : Thread nD τ).loc main_arg0)) :=
    (Pipeline.withArrays_arr spec0 launch0.win.arr_inj c _ _ 3).trans (final_inds m c)
  exact congrArg (fun z : S100000x8x3.Idx → BitVec 32 => shapeCast S800000x3 z shapeCasts_S100000x8x3_S800000x3) hw

/-- And the second result is the feature output with its two leading axes flattened. -/
theorem tail_feats (c : Dev nD) :
    (Pipeline.afterTail₀ cfgs (dats m) 0 (V0 m) [hostOps1] c main_v2 : S800000x64.Idx → Elt F .f32)
      = shapeCast S800000x64 (repeatRows (m ((c : Thread nD τ).loc main_arg1) : S100000x64.Idx → Elt F .f32)) shapeCasts_S100000x8x64_S800000x64 := by
  unfold Pipeline.afterTail₀
  show StableHlo.after hostOps1 _ (Proc.devRef .tc main_v2) = _
  after_results
  have hw : (Pipeline.withArrays (cfgs 0).spec c (V0 m c) (fun w => (dats m 0 c).arrAt w (cfgs 0).N) (Proc.devRef .tc main_v0_1) : S100000x8x64.Idx → Elt F .f32)
      = repeatRows (m ((c : Thread nD τ).loc main_arg1) : S100000x64.Idx → Elt F .f32) :=
    (Pipeline.withArrays_arr spec0 launch0.win.arr_inj c _ _ 4).trans (final_feats m c)
  exact congrArg (fun z : S100000x8x64.Idx → Elt F .f32 => shapeCast S800000x64 z shapeCasts_S100000x8x64_S800000x64) hw

/-- At the compiled mesh, for any float values, from any memory with zero counters: every weakly fair execution of
    @main terminates with the two results at the flattened specification arrays of the arguments, and the arguments
    unchanged. -/
theorem run : θ_run defs (onTc (τ := τ) (main (F := F))) ⟨m, fun _ => 0, ρ⟩ fun r => ∀ c : Dev nD,
      r.2.mem ((c.tc : Thread nD τ).loc main_v1) = shapeCast S800000x3 (childInds lit0 (m ((c.tc : Thread nD τ).loc main_arg0))) shapeCasts_S100000x8x3_S800000x3
      ∧ r.2.mem ((c.tc : Thread nD τ).loc main_v2) = shapeCast S800000x64 (repeatRows (m ((c.tc : Thread nD τ).loc main_arg1) : S100000x64.Idx → Elt F .f32)) shapeCasts_S100000x8x64_S800000x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 rest_v1).trans (tail_inds m c),
      ((h c).2 main_v2 rest_v2).trans (tail_feats m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c)))⟩)
    (run_main m ρ)

end Cert.KernelIdeal.Hand

end
-- ==== Proof.RefRun.lean ====
/-
  The reference program's run: its twelve host operations in order, and what its two result buffers hold when every
  weakly fair execution has ended. The integer result is the flattening of
  `(v along [0, 2] of [100000, 1, 3]) * 2`, repeated 8 times along the middle axis, plus the corner table repeated over
  the voxels; the float result is the flattening of the feature rows given a unit middle axis and repeated 8 times.
  The arguments end unchanged.
-/
import proofs.«162923_g31756988187341_cont_9to1_1364_4_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 12 operations, in order. -/
abbrev ops : List (HloOp τ sig (Elt F)) :=
  [ nullary main_c (constantI S1x1x3 32 2#32),
    nullary main_c_0 (fun i => lit0 (S1x8x3.rowMajor i)),
    unary main_arg0 main_v0 (broadcastInDim S100000x1x3 ![0, 2] bcast_S100000x3_S100000x1x3_0_2 : (⟨S100000x3, .i32⟩ : BufTy).Contents (Elt F) → (⟨S100000x1x3, .i32⟩ : BufTy).Contents (Elt F)),
    unary main_c main_v1 (broadcastInDim S100000x1x3 ![0, 1, 2] bcast_S1x1x3_S100000x1x3_0_1_2 : (⟨S1x1x3, .i32⟩ : BufTy).Contents (Elt F) → (⟨S100000x1x3, .i32⟩ : BufTy).Contents (Elt F)),
    binary main_v0 main_v1 main_v2 (muli : (⟨S100000x1x3, .i32⟩ : BufTy).Contents (Elt F) → (⟨S100000x1x3, .i32⟩ : BufTy).Contents (Elt F) → (⟨S100000x1x3, .i32⟩ : BufTy).Contents (Elt F)),
    unary main_v2 main_v3 (broadcastInDim S100000x8x3 ![0, 1, 2] bcast_S100000x1x3_S100000x8x3_0_1_2 : (⟨S100000x1x3, .i32⟩ : BufTy).Contents (Elt F) → (⟨S100000x8x3, .i32⟩ : BufTy).Contents (Elt F)),
    unary main_c_0 main_v4 (broadcastInDim S100000x8x3 ![0, 1, 2] bcast_S1x8x3_S100000x8x3_0_1_2 : (⟨S1x8x3, .i32⟩ : BufTy).Contents (Elt F) → (⟨S100000x8x3, .i32⟩ : BufTy).Contents (Elt F)),
    binary main_v3 main_v4 main_v5 (addi : (⟨S100000x8x3, .i32⟩ : BufTy).Contents (Elt F) → (⟨S100000x8x3, .i32⟩ : BufTy).Contents (Elt F) → (⟨S100000x8x3, .i32⟩ : BufTy).Contents (Elt F)),
    reshape main_v5 main_v6 rfl shapeCasts_S100000x8x3_S800000x3,
    unary main_arg1 main_v7 (broadcastInDim S100000x1x64 ![0, 2] bcast_S100000x64_S100000x1x64_0_2 : (⟨S100000x64, .f32⟩ : BufTy).Contents (Elt F) → (⟨S100000x1x64, .f32⟩ : BufTy).Contents (Elt F)),
    unary main_v7 main_v8 (broadcastInDim S100000x8x64 ![0, 1, 2] bcast_S100000x1x64_S100000x8x64_0_1_2 : (⟨S100000x1x64, .f32⟩ : BufTy).Contents (Elt F) → (⟨S100000x8x64, .f32⟩ : BufTy).Contents (Elt F)),
    reshape main_v8 main_v9 rfl shapeCasts_S100000x8x64_S800000x64 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., reshape_bufs_sub .., unary_bufs_sub .., unary_bufs_sub .., reshape_bufs_sub ..⟩

/-- The `[100000, 8, 3]` array of children's coordinates as the host operations build it from the voxel array. -/
def indsTerm (v : (⟨S100000x3, .i32⟩ : BufTy).Contents (Elt F)) : (⟨S100000x8x3, .i32⟩ : BufTy).Contents (Elt F) :=
  addi
    (broadcastInDim S100000x8x3 ![0, 1, 2] bcast_S100000x1x3_S100000x8x3_0_1_2
      (muli (broadcastInDim S100000x1x3 ![0, 2] bcast_S100000x3_S100000x1x3_0_2 v)
        (broadcastInDim S100000x1x3 ![0, 1, 2] bcast_S1x1x3_S100000x1x3_0_1_2 (constantI S1x1x3 32 2#32))))
    (broadcastInDim S100000x8x3 ![0, 1, 2] bcast_S1x8x3_S100000x8x3_0_1_2 (fun i => lit0 (S1x8x3.rowMajor i)))

/-- The `[100000, 8, 64]` array of children's features as the host operations build it from the feature array. -/
def featsTerm (x : (⟨S100000x64, .f32⟩ : BufTy).Contents (Elt F)) : (⟨S100000x8x64, .f32⟩ : BufTy).Contents (Elt F) :=
  broadcastInDim S100000x8x64 ![0, 1, 2] bcast_S100000x1x64_S100000x8x64_0_1_2
    (broadcastInDim S100000x1x64 ![0, 2] bcast_S100000x64_S100000x1x64_0_2 x)

/-- On every device, for any float values, from any memory with zero counters: every weakly fair execution of
    @main terminates with each result at the flattening of its `[100000, 8, ·]` array and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = shapeCast S800000x3 (indsTerm (F := F) (m ((c.tc : Thread nD τ).loc main_arg0))) shapeCasts_S100000x8x3_S800000x3
      ∧ r.2.mem ((c.tc : Thread nD τ).loc main_v9) = shapeCast S800000x64 (featsTerm (F := F) (m ((c.tc : Thread nD τ).loc main_arg1))) shapeCasts_S100000x8x64_S800000x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (by after_results; rfl),
      (h c main_v9).trans (by after_results; rfl),
      (h c main_arg0).trans (by after_results),
      (h c main_arg1).trans (by after_results)⟩)
    (run_seq scopedRefs_eq scopedSems_eq defs main (fun _ => ops) main_eq (fun _ => ops_sub) m ρ)

end Cert.ReferenceIdeal.Hand

end
-- ==== Proof.RefValue.lean ====
/-
  The reference's two `[100000, 8, ·]` arrays, read index by index, are the specification's.

  At `(n, k, b)` the repeat along the middle axis reads `(n, 0, b)` of the product, the product there is
  `v[n, b] * 2` (the factor 2 is a constant array), and the corner table repeated over the voxels reads its word
  `(0, k, b)`, entry `(k, b)` of the 8 × 3 table. The features at `(n, k, d)` read `(n, 0, d)`, which is the
  voxel's `(n, d)`.
-/
import proofs.«162923_g31756988187341_cont_9to1_1364_4_alg».proof.Proof.RefRun
import proofs.«162923_g31756988187341_cont_9to1_1364_4_alg».proof.Proof.LibMidAxis
import proofs.«162923_g31756988187341_cont_9to1_1364_4_alg».proof.Proof.Spec

noncomputable section

namespace Cert.ReferenceIdeal.Hand

open Cert.ReferenceIdeal Idealize.ShloMosaic Idealize.ShloMosaic.ValueIdx Cert.MidAxis Cert.Upsample

variable {F : FTy → Type} [FloatOps F]

/-- The host's array of children's coordinates is `2 * v[n, b] + off[k, b]`. -/
theorem indsTerm_eq (v : S100000x3.Idx → BitVec 32) : indsTerm (F := F) v = childInds lit0 v := by
  funext i
  obtain ⟨n, k, b, rfl⟩ : ∃ (n : Fin 100000) (k : Fin 8) (b : Fin 3), i = ix3 n k b := ⟨i 0, i 1, i 2, eq_ix3 i⟩
  rw [childInds_ix3]
  unfold indsTerm
  refine congrArg₂ IntOp.addi ?_ ?_
  · refine (broadcastInDim_a1b_akb_apply ![0, 1, 2] rfl rfl _ _ n k b).trans ?_
    refine congrArg (fun z => IntOp.muli z 2#32) ?_
    exact broadcastInDim_ab_a1b_apply ![0, 2] rfl rfl _ v n 0 b
  · refine (broadcastInDim_1kb_akb_apply ![0, 1, 2] rfl rfl _ _ n k b).trans ?_
    exact tab_rowMajor_1x8x3 lit0 0 k b

/-- The host's array of children's features is the voxel's row at each of its 8 children. -/
theorem featsTerm_eq (x : S100000x64.Idx → Elt F .f32) : featsTerm (F := F) x = repeatRows x := by
  funext i
  obtain ⟨n, k, d, rfl⟩ : ∃ (n : Fin 100000) (k : Fin 8) (d : Fin 64), i = ix3 n k d := ⟨i 0, i 1, i 2, eq_ix3 i⟩
  rw [repeatRows_ix3]
  unfold featsTerm
  refine (broadcastInDim_a1b_akb_apply ![0, 1, 2] rfl rfl _ _ n k d).trans ?_
  exact broadcastInDim_ab_a1b_apply ![0, 2] rfl rfl _ x n 0 d

end Cert.ReferenceIdeal.Hand

end
-- ==== Proof.lean ====
/-
  Upsampling a voxel grid by two. Each of 100000 voxels has 8 children: child `k` of voxel `n` has integer coordinates
  `2 * v[n, b] + off[k, b]`, with `off` the 8 corners of the unit cube, and carries the voxel's 64 features. The kernel
  computes both `[100000, 8, ·]` arrays block by block, 2000 voxels a grid point, each block's value a repeat along a
  unit middle axis; the reference builds the same two arrays by host broadcasts over the whole input. Both then flatten
  the two leading axes, the same operation applied to equal arrays. The integer arithmetic is that of 32-bit words on
  both sides, the features are only copied: no law of the extended reals is used, and the precondition is never opened.

  The kernel's value is read off its frame run (Proof/KernelPay, KernelValue, KernelRun), the reference's run is listed
  and read index by index (Proof/RefRun, RefValue), over the specification in Proof/Spec and the index lemmas of
  Proof/LibMidAxis; here the five claims are assembled.
-/
import proofs.«162923_g31756988187341_cont_9to1_1364_4_alg».proof.Defs
import proofs.«162923_g31756988187341_cont_9to1_1364_4_alg».proof.Proof.Gen.Kernel
import proofs.«162923_g31756988187341_cont_9to1_1364_4_alg».proof.Proof.Gen.Kernel.Frame
import proofs.«162923_g31756988187341_cont_9to1_1364_4_alg».proof.Proof.Gen.KernelIdeal
import proofs.«162923_g31756988187341_cont_9to1_1364_4_alg».proof.Proof.Gen.KernelIdeal.Frame
import proofs.«162923_g31756988187341_cont_9to1_1364_4_alg».proof.Proof.Gen.ReferenceIdeal
import proofs.«162923_g31756988187341_cont_9to1_1364_4_alg».proof.Proof.Gen.Pre_finite_inputs
import proofs.«162923_g31756988187341_cont_9to1_1364_4_alg».proof.Proof.KernelRun
import proofs.«162923_g31756988187341_cont_9to1_1364_4_alg».proof.Proof.RefValue

noncomputable section

namespace Cert.Proof

open Idealize.ShloMosaic Idealize.ShloMosaic.TcCoe Idealize.SL.Sem

/-- Both programs list the same 24 words for the cube's corners. -/
theorem corners_eq : Cert.ReferenceIdeal.lit0 = Cert.KernelIdeal.lit0 := by decide

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Hand.run (F := Ideal) m ρ)

/-- From memories agreeing on the arguments both programs end with the flattened specification arrays of those
    arguments: the kernel's by its blocks tiling the outputs, the reference's index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run (F := Ideal) m ρ, ?_⟩
  refine (θ_run Cert.ReferenceIdeal.defs _ _).mono (fun _ h c => ⟨(h c).1.trans ?_, (h c).2.1.trans ?_, (h c).2.2⟩)
    (Cert.ReferenceIdeal.Hand.run (F := Ideal) m' ρ')
  · rw [(hagree c).1, Cert.ReferenceIdeal.Hand.indsTerm_eq, corners_eq]
  · rw [(hagree c).2, Cert.ReferenceIdeal.Hand.featsTerm_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
